-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_inv_h" .f32 0xC0A00000#32 ((-67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5x10x128x128 : Shape := ⟨4, ![5, 10, 128, 128]⟩
abbrev S_ : Shape := ⟨0, ![]⟩

class Facts : Prop where
  bcast_S_S5x10x128x128 : S_.BroadcastsInDim S5x10x128x128 (![] : Fin 0 → Fin S5x10x128x128.rank)
  reducesTo_S5x10x128x128_S_d0_1_2_3 : S5x10x128x128.ReducesTo [0, 1, 2, 3] S_
  h_S_ : 0 < S_.numel

variable [Facts]

def fn {F : FTy → Type} [FloatOps F] (main_arg0 : FVec F S5x10x128x128 .f32) (main_arg1 : FVec F S5x10x128x128 .f32) : IVec S_ 1 :=
  let main_v0 : FVec F S5x10x128x128 .f32 := Host.absf main_arg0
  let main_cst : FVec F S_ .f32 := constant S_ .f32 0x7F800000#32
  let main_v1 : FVec F S5x10x128x128 .f32 := broadcastInDim S5x10x128x128 ![] bcast_S_S5x10x128x128 main_cst
  let main_v2 : IVec S5x10x128x128 1 := cmpf .olt main_v0 main_v1
  let main_c : IVec S_ 1 := constantI S_ 1 1#1
  let main_v3 : IVec S_ 1 := (fun x v => Host.reduce IntOp.andi x v reducesTo_S5x10x128x128_S_d0_1_2_3 h_S_) main_v2 main_c
  let main_v4 : FVec F S5x10x128x128 .f32 := Host.absf main_arg1
  let main_cst_0 : FVec F S_ .f32 := constant S_ .f32 0x7F800000#32
  let main_v5 : FVec F S5x10x128x128 .f32 := broadcastInDim S5x10x128x128 ![] bcast_S_S5x10x128x128 main_cst_0
  let main_v6 : IVec S5x10x128x128 1 := cmpf .olt main_v4 main_v5
  let main_c_1 : IVec S_ 1 := constantI S_ 1 1#1
  let main_v7 : IVec S_ 1 := (fun x v => Host.reduce IntOp.andi x v reducesTo_S5x10x128x128_S_d0_1_2_3 h_S_) main_v6 main_c_1
  let main_v8 : IVec S_ 1 := andi main_v3 main_v7
  main_v8
-- ==== Kernel.lean ====
abbrev S5x10x128x128 : Shape := ⟨4, ![5, 10, 128, 128]⟩
abbrev S50x16384 : Shape := ⟨2, ![50, 16384]⟩
abbrev S40x16384 : Shape := ⟨2, ![40, 16384]⟩
abbrev S_ : Shape := ⟨0, ![]⟩
abbrev S16384 : Shape := ⟨1, ![16384]⟩
abbrev S1x16384 : Shape := ⟨2, ![1, 16384]⟩
abbrev S64x1x128 : Shape := ⟨3, ![64, 1, 128]⟩
abbrev S40x256 : Shape := ⟨2, ![40, 256]⟩
abbrev S1x1x128 : Shape := ⟨3, ![1, 1, 128]⟩
abbrev S256x16384 : Shape := ⟨2, ![256, 16384]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 44
  | .vmem => 5
  | .smem => 0
  | _ => 0

abbrev bufTy : (tb : Table) → Fin (tcTables nBuf tb) → BufTy
  | .hbm, ⟨0, _⟩ => ⟨S5x10x128x128, .f32⟩
  | .hbm, ⟨1, _⟩ => ⟨S5x10x128x128, .f32⟩
  | .hbm, ⟨2, _⟩ => ⟨S50x16384, .f32⟩
  | .hbm, ⟨3, _⟩ => ⟨S40x16384, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S1x16384, .f32⟩
  | .hbm, ⟨10, _⟩ => ⟨S40x16384, .f32⟩
  | .hbm, ⟨11, _⟩ => ⟨S40x16384, .f32⟩
  | .hbm, ⟨12, _⟩ => ⟨S50x16384, .f32⟩
  | .hbm, ⟨13, _⟩ => ⟨S40x16384, .f32⟩
  | .hbm, ⟨14, _⟩ => ⟨S1x16384, .f32⟩
  | .hbm, ⟨15, _⟩ => ⟨S40x16384, .f32⟩
  | .hbm, ⟨16, _⟩ => ⟨S40x16384, .f32⟩
  | .hbm, ⟨17, _⟩ => ⟨S40x16384, .f32⟩
  | .hbm, ⟨18, _⟩ => ⟨S_, .f32⟩
  | .hbm, ⟨19, _⟩ => ⟨S16384, .f32⟩
  | .hbm, ⟨20, _⟩ => ⟨S1x16384, .f32⟩
  | .hbm, ⟨21, _⟩ => ⟨S1x16384, .f32⟩
  | .hbm, ⟨22, _⟩ => ⟨S_, .f32⟩
  | .hbm, ⟨23, _⟩ => ⟨S_, .f32⟩
  | .hbm, ⟨24, _⟩ => ⟨S1x16384, .f32⟩
  | .hbm, ⟨25, _⟩ => ⟨S1x16384, .f32⟩
  | .hbm, ⟨26, _⟩ => ⟨S40x16384, .f32⟩
  | .hbm, ⟨27, _⟩ => ⟨S40x16384, .f32⟩
  | .hbm, ⟨28, _⟩ => ⟨S40x16384, .f32⟩
  | .hbm, ⟨29, _⟩ => ⟨S_, .f32⟩
  | .hbm, ⟨30, _⟩ => ⟨S16384, .f32⟩
  | .hbm, ⟨31, _⟩ => ⟨S1x16384, .f32⟩
  | .hbm, ⟨32, _⟩ => ⟨S1x16384, .f32⟩
  | .hbm, ⟨33, _⟩ => ⟨S_, .f32⟩
  | .hbm, ⟨34, _⟩ => ⟨S_, .f32⟩
  | .hbm, ⟨35, _⟩ => ⟨S1x16384, .f32⟩
  | .hbm, ⟨36, _⟩ => ⟨S1x16384, .f32⟩
  | .hbm, ⟨37, _⟩ => ⟨S40x16384, .f32⟩
  | .hbm, ⟨38, _⟩ => ⟨S40x16384, .f32⟩
  | .hbm, ⟨39, _⟩ => ⟨S64x1x128, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S40x256, .f32⟩
  | .local _ .vmem, ⟨1, _⟩ => ⟨S40x256, .f32⟩
  | .local _ .vmem, ⟨2, _⟩ => ⟨S40x16384, .f32⟩
  | .local _ .vmem, ⟨3, _⟩ => ⟨S1x1x128, .f32⟩
  | .local _ .vmem, ⟨4, _⟩ => ⟨S1x1x128, .f32⟩
  | _, _ => ⟨S5x10x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call2_v0 : Ref sig .tc := ⟨.hbm, 28, rfl⟩
abbrev main_call2_cst : Ref sig .tc := ⟨.hbm, 29, rfl⟩
abbrev main_call2_v1 : Ref sig .tc := ⟨.hbm, 30, rfl⟩
abbrev main_call2_v2 : Ref sig .tc := ⟨.hbm, 31, rfl⟩
abbrev main_v17 : Ref sig .tc := ⟨.hbm, 32, rfl⟩
abbrev main_cst_2 : Ref sig .tc := ⟨.hbm, 33, rfl⟩
abbrev main_call3_v0 : Ref sig .tc := ⟨.hbm, 34, rfl⟩
abbrev main_call3_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S40x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S5x10x128x128_S50x16384 : S5x10x128x128.ShapeCasts S50x16384
  slices_S50x16384_S40x16384_10_0 : S50x16384.Slices ![10, 0] S40x16384
  reducesTo_S40x16384_S16384_d0 : S40x16384.ReducesTo [0] S16384
  h_S_ : 0 < S_.numel
  bcast_S_S16384 : S_.BroadcastsInDim S16384 (![] : Fin 0 → Fin S16384.rank)
  bcast_S16384_S1x16384_1 : S16384.BroadcastsInDim S1x16384 (![1] : Fin 1 → Fin S1x16384.rank)
  bcast_S1x16384_S40x16384_0_1 : S1x16384.BroadcastsInDim S40x16384 (![0, 1] : Fin 2 → Fin S40x16384.rank)
  bcast_S_S1x16384 : S_.BroadcastsInDim S1x16384 (![] : Fin 0 → Fin S1x16384.rank)
  inb_S40x256_S40x256_0_0 : ∀ a, (![0, 0] : Fin 2 → Nat) a + S40x256.size a ≤ S40x256.size a
  h_S40x256 : 0 < S40x256.numel
  shapeCasts_S40x256_S40x256 : S40x256.ShapeCasts S40x256
  inb_S40x16384_S40x16384_0_0 : ∀ a, (![0, 0] : Fin 2 → Nat) a + S40x16384.size a ≤ S40x16384.size a
  h_S40x16384 : 0 < S40x16384.numel
  shapeCasts_S40x16384_S40x16384 : S40x16384.ShapeCasts S40x16384
  reduces_S256x16384_S256 : S256x16384.Reduces [1] S256
  shapeCasts_S256_S256x1 : S256.ShapeCasts S256x1
  broadcasts_S256x1_S256x16384 : S256x1.Broadcasts S256x16384
  shapeCasts_S256x1_S1x256x1 : S256x1.ShapeCasts S1x256x1
  reduces_S1x256x1_S1 : S1x256x1.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  reducesTo_S64x1x128_S_d0_1_2 : S64x1x128.ReducesTo [0, 1, 2] S_
  dot_S40x256_S40x16384_S256x16384_0_0_1_1_n_n_wf : DotDims.WF S40x256 S40x16384 S256x16384 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x256.size a ≤ S40x16384.size a
  hwx0_0 : ∀ i : grid0.Coords, EltTy.bits .f32 = 32 ∨ (Rect.block (s := S40x16384) S40x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x16384.size a ≤ S40x16384.size a
  hwx0_1 : ∀ i : grid0.Coords, EltTy.bits .f32 = 32 ∨ (Rect.block (s := S40x16384) S40x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S64x1x128.size a
  hwx0_2 : ∀ i : grid0.Coords, EltTy.bits .f32 = 32 ∨ (Rect.block (s := S64x1x128) S1x1x128.size (cc0_transform_2 i) (hinb0_2 i)).WholeWords (EltTy.packing .f32)

variable [Facts₀]

def dot_S40x256_S40x16384_S256x16384_0_0_1_1_n_n : DotDims S40x256 S40x16384 S256x16384 where
  lhsContracting := [0]
  rhsContracting := [0]
  lhsNonContracting := [1]
  rhsNonContracting := [1]
  lhsBatch := []
  rhsBatch := []
  wf := dot_S40x256_S40x16384_S256x16384_0_0_1_1_n_n_wf

abbrev win0_0 : Pipeline.Window sig grid0 :=
  Pipeline.Window.ofSpec (Memref.whole main_v16) S40x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S40x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S5x10x128x128 : Shape := ⟨4, ![5, 10, 128, 128]⟩
abbrev S50x16384 : Shape := ⟨2, ![50, 16384]⟩
abbrev S40x16384 : Shape := ⟨2, ![40, 16384]⟩
abbrev S_ : Shape := ⟨0, ![]⟩
abbrev S16384 : Shape := ⟨1, ![16384]⟩
abbrev S1x16384 : Shape := ⟨2, ![1, 16384]⟩
abbrev S16384x16384 : Shape := ⟨2, ![16384, 16384]⟩
abbrev S16384x1 : Shape := ⟨2, ![16384, 1]⟩

abbrev nBuf : Space → Nat
  | .hbm => 66
  | .vmem => 0
  | .smem => 0
  | _ => 0

abbrev bufTy : (tb : Table) → Fin (tcTables nBuf tb) → BufTy
  | .hbm, ⟨0, _⟩ => ⟨S5x10x128x128, .f32⟩
  | .hbm, ⟨1, _⟩ => ⟨S5x10x128x128, .f32⟩
  | .hbm, ⟨2, _⟩ => ⟨S50x16384, .f32⟩
  | .hbm, ⟨3, _⟩ => ⟨S40x16384, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S1x16384, .f32⟩
  | .hbm, ⟨10, _⟩ => ⟨S40x16384, .f32⟩
  | .hbm, ⟨11, _⟩ => ⟨S40x16384, .f32⟩
  | .hbm, ⟨12, _⟩ => ⟨S50x16384, .f32⟩
  | .hbm, ⟨13, _⟩ => ⟨S40x16384, .f32⟩
  | .hbm, ⟨14, _⟩ => ⟨S1x16384, .f32⟩
  | .hbm, ⟨15, _⟩ => ⟨S40x16384, .f32⟩
  | .hbm, ⟨16, _⟩ => ⟨S40x16384, .f32⟩
  | .hbm, ⟨17, _⟩ => ⟨S40x16384, .f32⟩
  | .hbm, ⟨18, _⟩ => ⟨S_, .f32⟩
  | .hbm, ⟨19, _⟩ => ⟨S16384, .f32⟩
  | .hbm, ⟨20, _⟩ => ⟨S1x16384, .f32⟩
  | .hbm, ⟨21, _⟩ => ⟨S1x16384, .f32⟩
  | .hbm, ⟨22, _⟩ => ⟨S_, .f32⟩
  | .hbm, ⟨23, _⟩ => ⟨S_, .f32⟩
  | .hbm, ⟨24, _⟩ => ⟨S1x16384, .f32⟩
  | .hbm, ⟨25, _⟩ => ⟨S1x16384, .f32⟩
  | .hbm, ⟨26, _⟩ => ⟨S40x16384, .f32⟩
  | .hbm, ⟨27, _⟩ => ⟨S40x16384, .f32⟩
  | .hbm, ⟨28, _⟩ => ⟨S40x16384, .f32⟩
  | .hbm, ⟨29, _⟩ => ⟨S_, .f32⟩
  | .hbm, ⟨30, _⟩ => ⟨S16384, .f32⟩
  | .hbm, ⟨31, _⟩ => ⟨S1x16384, .f32⟩
  | .hbm, ⟨32, _⟩ => ⟨S1x16384, .f32⟩
  | .hbm, ⟨33, _⟩ => ⟨S_, .f32⟩
  | .hbm, ⟨34, _⟩ => ⟨S_, .f32⟩
  | .hbm, ⟨35, _⟩ => ⟨S1x16384, .f32⟩
  | .hbm, ⟨36, _⟩ => ⟨S1x16384, .f32⟩
  | .hbm, ⟨37, _⟩ => ⟨S40x16384, .f32⟩
  | .hbm, ⟨38, _⟩ => ⟨S40x16384, .f32⟩
  | .hbm, ⟨39, _⟩ => ⟨S16384x16384, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x16384, .f32⟩
  | .hbm, ⟨47, _⟩ => ⟨S16384x16384, .f32⟩
  | .hbm, ⟨48, _⟩ => ⟨S_, .f32⟩
  | .hbm, ⟨49, _⟩ => ⟨S16384x16384, .f32⟩
  | .hbm, ⟨50, _⟩ => ⟨S16384x16384, .f32⟩
  | .hbm, ⟨51, _⟩ => ⟨S_, .f32⟩
  | .hbm, ⟨52, _⟩ => ⟨S16384x16384, .f32⟩
  | .hbm, ⟨53, _⟩ => ⟨S16384x16384, .f32⟩
  | .hbm, ⟨54, _⟩ => ⟨S16384x16384, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x16384, .f32⟩
  | .hbm, ⟨59, _⟩ => ⟨S16384x16384, .f32⟩
  | .hbm, ⟨60, _⟩ => ⟨S_, .f32⟩
  | .hbm, ⟨61, _⟩ => ⟨S16384, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S5x10x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call2_v0 : Ref sig .tc := ⟨.hbm, 28, rfl⟩
abbrev main_call2_cst : Ref sig .tc := ⟨.hbm, 29, rfl⟩
abbrev main_call2_v1 : Ref sig .tc := ⟨.hbm, 30, rfl⟩
abbrev main_call2_v2 : Ref sig .tc := ⟨.hbm, 31, rfl⟩
abbrev main_v17 : Ref sig .tc := ⟨.hbm, 32, rfl⟩
abbrev main_cst_2 : Ref sig .tc := ⟨.hbm, 33, rfl⟩
abbrev main_call3_v0 : Ref sig .tc := ⟨.hbm, 34, rfl⟩
abbrev main_call3_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  shapeCasts_S5x10x128x128_S50x16384 : S5x10x128x128.ShapeCasts S50x16384
  slices_S50x16384_S40x16384_10_0 : S50x16384.Slices ![10, 0] S40x16384
  reducesTo_S40x16384_S16384_d0 : S40x16384.ReducesTo [0] S16384
  h_S_ : 0 < S_.numel
  bcast_S_S16384 : S_.BroadcastsInDim S16384 (![] : Fin 0 → Fin S16384.rank)
  bcast_S16384_S1x16384_1 : S16384.BroadcastsInDim S1x16384 (![1] : Fin 1 → Fin S1x16384.rank)
  bcast_S1x16384_S40x16384_0_1 : S1x16384.BroadcastsInDim S40x16384 (![0, 1] : Fin 2 → Fin S40x16384.rank)
  bcast_S_S1x16384 : S_.BroadcastsInDim S1x16384 (![] : Fin 0 → Fin S1x16384.rank)
  reducesTo_S16384x16384_S16384_d1 : S16384x16384.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x16384_0_1 : S16384x1.BroadcastsInDim S16384x16384 (![0, 1] : Fin 2 → Fin S16384x16384.rank)
  bcast_S_S16384x16384 : S_.BroadcastsInDim S16384x16384 (![] : Fin 0 → Fin S16384x16384.rank)
  reducesTo_S16384x16384_S16384_d0 : S16384x16384.ReducesTo [0] S16384
  reducesTo_S16384_S_d0 : S16384.ReducesTo [0] S_
  dot_S40x16384_S40x16384_S16384x16384_0_0_1_1_n_n_wf : DotDims.WF S40x16384 S40x16384 S16384x16384 [0] [0] [1] [1] [] []

variable [Facts₀]

def dot_S40x16384_S40x16384_S16384x16384_0_0_1_1_n_n : DotDims S40x16384 S40x16384 S16384x16384 where
  lhsContracting := [0]
  rhsContracting := [0]
  lhsNonContracting := [1]
  rhsNonContracting := [1]
  lhsBatch := []
  rhsBatch := []
  wf := dot_S40x16384_S40x16384_S16384x16384_0_0_1_1_n_n_wf

class Facts : Prop extends Facts₀ where

variable [Facts]
-- ==== Proof.LibScaleSum.lean ====
/-
  Scaling a finite sum of extended reals by a finite non-negative number.

  On the extended reals multiplication does not distribute over addition in general: x · (⊤ + ⊥) and x · ⊤ + x · ⊥
  differ for a negative x, and ⊤ · (1 + (-1)) is 0 while ⊤ · 1 + ⊤ · (-1) is ⊥. It does when the factor c is
  non-negative and finite: then y ↦ c · y is monotone, sends each infinity to itself or (for c = 0) everything to 0,
  and so respects the convention ⊤ + ⊥ = ⊥. Hence such a factor moves inside any finite sum, whatever the summands.
-/
import Mathlib.Data.EReal.Operations
import Mathlib.Algebra.BigOperators.Group.Finset.Basic

open scoped BigOperators

namespace EReal

/-- A finite non-negative factor moves inside a finite sum of extended reals. -/
theorem mul_sum_of_nonneg_of_ne_top {ι : Type*} (s : Finset ι) {c : EReal} (h0 : 0 ≤ c) (ht : c ≠ ⊤)
    (f : ι → EReal) : c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The same with the factor on the right. -/
theorem sum_mul_of_nonneg_of_ne_top {ι : Type*} (s : Finset ι) {c : EReal} (h0 : 0 ≤ c) (ht : c ≠ ⊤)
    (f : ι → EReal) : (∑ i ∈ s, f i) * c = ∑ i ∈ s, f i * c := by
  rw [EReal.mul_comm, mul_sum_of_nonneg_of_ne_top s h0 ht]
  exact Finset.sum_congr rfl fun i _ => EReal.mul_comm _ _

end EReal
-- ==== Proof.RowLaw.lean ====
/-
  One row of the contextual similarity, in the two spellings, over the extended reals.

  A row `s` of similarities has minimum `m`; put `d = m + ε`. The reference weighs entry `t` by
  `exp ((1 - s t / d) / h)`, divides each weight by the row's sum of weights and takes the largest quotient. The kernel
  weighs it by `exp (s t · (1 / d · k))` with `k = -(1 / h)` and divides the largest weight by the sum of weights. Off
  `d = 0` every reference weight is `exp (1 / h)` times the kernel's, entry by entry and at the infinities too, since
  `(1 - u) / h = 1 / h + u · k` for every extended real `u`; a finite positive factor moves through the sum, cancels in
  the quotient, and a quotient by a fixed non-negative number is monotone, so it commutes with the maximum. At `d = 0`
  the minimum is negative, so some entry is negative, its weight is `⊤` in both spellings, both sums are `⊤` and both
  rows are `0`. No entry needs to be finite.
-/
import Idealize.ShloMosaic.PureOps.Ideal
import proofs.«177623_j21732534518053_2_alg».proof.Proof.LibScaleSum

noncomputable section

namespace Cert.RowLaw

open Idealize.ShloMosaic

/-! ## Folds of `max` from `⊥` -/

section Fold
variable {ι : Type*}

/-- A fold of `max` is below `c` exactly when its start and every term are. -/
theorem foldMax_le_iff (s : Finset ι) (b : EReal) (g : ι → EReal) (c : EReal) :
    s.fold max b g ≤ c ↔ b ≤ c ∧ ∀ x ∈ s, g x ≤ c := Finset.fold_max_le c

/-- Over a set with a term above the start, the start may be lowered to `⊥`. -/
theorem foldMax_start (s : Finset ι) (b : EReal) (g : ι → EReal) (h : ∃ x ∈ s, b ≤ g x) :
    s.fold max b g = s.fold max ⊥ g := by
  obtain ⟨x, hx, hb⟩ := h
  refine eq_of_forall_ge_iff fun c => ?_
  rw [foldMax_le_iff, foldMax_le_iff]
  exact ⟨fun h => ⟨bot_le, h.2⟩, fun h => ⟨hb.trans (h.2 x hx), h.2⟩⟩

/-- The maximum of a constant over a non-empty set. -/
theorem foldMax_const (s : Finset ι) (hs : s.Nonempty) (a : EReal) : s.fold max ⊥ (fun _ => a) = a := by
  obtain ⟨x, hx⟩ := hs
  refine eq_of_forall_ge_iff fun c => ?_
  rw [foldMax_le_iff]
  exact ⟨fun h => h.2 x hx, fun h => ⟨bot_le, fun _ _ => h⟩⟩

/-- A monotone map commutes with the maximum over a non-empty set. -/
theorem foldMax_map (s : Finset ι) (hs : s.Nonempty) (g : ι → EReal) (f : EReal → EReal) (hf : Monotone f) :
    s.fold max ⊥ (fun x => f (g x)) = f (s.fold max ⊥ g) := by
  obtain ⟨x, hx⟩ := hs
  rw [← foldMax_start s (f ⊥) _ ⟨x, hx, hf bot_le⟩]
  exact Finset.fold_hom (op := max) (op' := max) (m := f) fun a b => hf.map_max

end Fold

/-! ## The quotient -/

/-- Dividing by a fixed non-negative number is monotone. -/
theorem div_mono_left {W : EReal} (hW : 0 ≤ W) : Monotone fun x => Ideal.div x W := by
  intro x y hxy
  by_cases h0 : W = 0
  · subst h0
    simp only [Ideal.div, if_true]
    by_cases hx : 0 < x
    · rw [if_pos hx, if_pos (hx.trans_le hxy)]
    · rw [if_neg hx]; exact bot_le
  · simp only [Ideal.div, if_neg h0]
    exact mul_le_mul_of_nonneg_right hxy (EReal.inv_nonneg_of_nonneg hW)

/-- A finite positive factor common to both terms of a quotient cancels, whatever the two terms. -/
theorem div_mul_cancel_left {E : ℝ} (hE : 0 < E) (x W : EReal) :
    Ideal.div ((E : EReal) * x) ((E : EReal) * W) = Ideal.div x W := by
  have hE' : (0 : EReal) < (E : EReal) := by exact_mod_cast hE
  by_cases h0 : W = 0
  · subst h0
    rw [mul_zero]
    simp only [Ideal.div, if_true]
    by_cases hx : 0 < x
    · rw [if_pos hx, if_pos (EReal.mul_pos hE' hx)]
    · rw [if_neg hx, if_neg]
      intro h
      exact hx ((EReal.mul_pos_iff.1 h).elim (fun h => h.2) fun h => absurd h.1 (not_lt.2 hE'.le))
  · have hEW : (E : EReal) * W ≠ 0 := by
      intro h
      rcases mul_eq_zero.1 h with h | h
      · exact hE'.ne' h
      · exact h0 h
    simp only [Ideal.div, if_neg h0, if_neg hEW]
    induction W using EReal.rec with
    | bot => rw [EReal.coe_mul_bot_of_pos hE, EReal.inv_bot, mul_zero, mul_zero]
    | top => rw [EReal.coe_mul_top_of_pos hE, EReal.inv_top, mul_zero, mul_zero]
    | coe w =>
      have hw : w ≠ 0 := by exact_mod_cast h0
      rw [← EReal.coe_mul, ← EReal.coe_inv, ← EReal.coe_inv, mul_inv, EReal.coe_mul, mul_comm (E : EReal) x,
        mul_assoc, ← mul_assoc (E : EReal), ← EReal.coe_mul, mul_inv_cancel₀ hE.ne', EReal.coe_one, one_mul]

/-! ## The exponent -/

/-- `(1 - u) · η = η + u · (-η)` for a positive real `η` and every extended real `u`. -/
theorem exponent_split {η : ℝ} (hη : 0 < η) (u : EReal) :
    (1 - u) * (η : EReal) = (η : EReal) + u * ((-η : ℝ) : EReal) := by
  induction u using EReal.rec with
  | bot =>
    have h1 : (1 : EReal) ≠ ⊥ := EReal.coe_ne_bot 1
    rw [EReal.sub_bot h1, EReal.top_mul_coe_of_pos hη, EReal.bot_mul_coe_of_neg (by linarith), EReal.coe_add_top]
  | top =>
    rw [EReal.sub_top, EReal.bot_mul_coe_of_pos hη, EReal.top_mul_coe_of_neg (by linarith), EReal.add_bot]
  | coe x =>
    rw [← EReal.coe_one, ← EReal.coe_sub, ← EReal.coe_mul, ← EReal.coe_mul, ← EReal.coe_add]
    congr 1; ring

/-- The exponential of a real plus anything is the product of the exponentials. -/
theorem exp_coe_add (a : ℝ) (y : EReal) : Ideal.exp ((a : EReal) + y) = (Real.exp a : EReal) * Ideal.exp y := by
  induction y using EReal.rec with
  | bot => rw [EReal.add_bot, Ideal.exp_bot, mul_zero]
  | top => rw [EReal.coe_add_top, Ideal.exp_top, EReal.coe_mul_top_of_pos (Real.exp_pos a)]
  | coe x => rw [← EReal.coe_add, Ideal.exp_coe, Ideal.exp_coe, Real.exp_add, EReal.coe_mul]

/-- Every exponential is non-negative. -/
theorem exp_nonneg (y : EReal) : 0 ≤ Ideal.exp y := by
  induction y using EReal.rec with
  | bot => rw [Ideal.exp_bot]
  | top => rw [Ideal.exp_top]; exact le_top
  | coe x => rw [Ideal.exp_coe]; exact_mod_cast (Real.exp_pos x).le

/-! ## The row -/

section Row
variable {ι : Type*} [Fintype ι]

/-- The shifted minimum of a row. -/
def shiftedMin (ε : EReal) (s : ι → EReal) : EReal := Finset.univ.fold min ⊤ s + ε

/-- The kernel's weight of entry `t`. -/
def kernelWeight (ε k : EReal) (s : ι → EReal) (t : ι) : EReal :=
  Ideal.exp (s t * (Ideal.div 1 (shiftedMin ε s) * k))

/-- The kernel's value of a row: the largest weight over the sum of the weights. -/
def kernelRow (ε k : EReal) (s : ι → EReal) : EReal :=
  Ideal.div (Finset.univ.fold max ⊥ (kernelWeight ε k s)) (∑ t, kernelWeight ε k s t)

/-- The reference's weight of entry `t`. -/
def referenceWeight (ε h : EReal) (s : ι → EReal) (t : ι) : EReal :=
  Ideal.exp (Ideal.div (1 - Ideal.div (s t) (shiftedMin ε s)) h)

/-- The reference's value of a row: the largest normalised weight. -/
def referenceRow (ε h : EReal) (s : ι → EReal) : EReal :=
  Finset.univ.fold max ⊥ fun t => Ideal.div (referenceWeight ε h s t) (∑ u, referenceWeight ε h s u)

/-- A sum of non-negative terms one of which is `⊤` is `⊤`. -/
theorem sum_eq_top (w : ι → EReal) (hw : ∀ t, 0 ≤ w t) (t0 : ι) (h0 : w t0 = ⊤) : ∑ t, w t = ⊤ :=
  top_le_iff.1 (h0 ▸ Finset.single_le_sum (fun t _ => hw t) (Finset.mem_univ t0))

/-- Off a zero shifted minimum each reference weight is `exp (1 / h)` times the kernel's. -/
theorem referenceWeight_eq {ε : EReal} {h : ℝ} (hh : 0 < h) (s : ι → EReal) (hd : shiftedMin ε s ≠ 0) (t : ι) :
    referenceWeight ε (h : EReal) s t
      = (Real.exp (1 / h) : EReal) * kernelWeight ε ((-(1 / h) : ℝ) : EReal) s t := by
  unfold referenceWeight kernelWeight
  have e1 : Ideal.div (s t) (shiftedMin ε s) = s t * (shiftedMin ε s)⁻¹ := by simp only [Ideal.div, if_neg hd]
  have e2 : Ideal.div 1 (shiftedMin ε s) = (shiftedMin ε s)⁻¹ := by simp only [Ideal.div, if_neg hd, one_mul]
  rw [Ideal.div_coe hh.ne', e1, e2, ← mul_assoc, ← exp_coe_add, exponent_split (one_div_pos.2 hh)]

/-- The two spellings of a row agree, whatever the row holds. -/
theorem row_eq [Nonempty ι] {ε : EReal} (hε : 0 < ε) {h : ℝ} (hh : 0 < h) (s : ι → EReal) :
    kernelRow ε ((-(1 / h) : ℝ) : EReal) s = referenceRow ε (h : EReal) s := by
  have hne : (Finset.univ : Finset ι).Nonempty := Finset.univ_nonempty
  by_cases hd : shiftedMin ε s = 0
  · -- the minimum is negative, so an entry is: its weight is ⊤ in both spellings
    have hm : Finset.univ.fold min ⊤ s < 0 := by
      by_contra hc
      have : ε ≤ shiftedMin ε s := by
        unfold shiftedMin; rw [add_comm]; simpa using add_le_add_right (not_lt.1 hc) ε
      exact (hε.trans_le this).ne' hd
    obtain ⟨t0, -, ht0⟩ : ∃ t ∈ Finset.univ, s t < 0 :=
      ((Finset.fold_min_lt _).1 hm).resolve_left (by simp)
    have hk : (-(1 / h) : ℝ) < 0 := by have := one_div_pos.2 hh; linarith
    have hK : kernelWeight ε ((-(1 / h) : ℝ) : EReal) s t0 = ⊤ := by
      unfold kernelWeight
      rw [hd]
      have : Ideal.div 1 0 = ⊤ := by simp [Ideal.div]
      rw [this, EReal.top_mul_coe_of_neg hk, EReal.mul_bot_of_neg ht0, Ideal.exp_top]
    have hR : referenceWeight ε (h : EReal) s t0 = ⊤ := by
      unfold referenceWeight
      rw [hd]
      have : Ideal.div (s t0) 0 = ⊥ := by simp [Ideal.div, not_lt.2 ht0.le]
      have h1 : (1 : EReal) ≠ ⊥ := EReal.coe_ne_bot 1
      rw [this, EReal.sub_bot h1, Ideal.div_coe hh.ne', EReal.top_mul_coe_of_pos (one_div_pos.2 hh),
        Ideal.exp_top]
    have hdivtop : ∀ x : EReal, Ideal.div x ⊤ = 0 := fun x => by simp [Ideal.div]
    unfold kernelRow referenceRow
    rw [sum_eq_top (kernelWeight ε _ s) (fun t => exp_nonneg _) t0 hK,
      sum_eq_top (referenceWeight ε _ s) (fun t => exp_nonneg _) t0 hR, hdivtop]
    simp only [hdivtop]
    exact (foldMax_const _ hne 0).symm
  · have hE : (0 : ℝ) < Real.exp (1 / h) := Real.exp_pos _
    have hE' : (0 : EReal) ≤ (Real.exp (1 / h) : EReal) := by exact_mod_cast hE.le
    unfold referenceRow
    simp only [referenceWeight_eq hh s hd]
    rw [← EReal.mul_sum_of_nonneg_of_ne_top _ hE' (EReal.coe_ne_top _)]
    simp only [div_mul_cancel_left hE]
    exact (foldMax_map _ hne _ _
      (div_mono_left (Finset.sum_nonneg fun t _ => exp_nonneg _))).symm

end Row

end Cert.RowLaw

end
-- ==== Proof.Consts.lean ====
/-
  The float literals of the two programs as the extended reals they denote.

  Both programs add the same small positive number to a row's minimum; the reference subtracts from the literal one
  and divides by the single-precision literal nearest to one fifth, which is the rational 13421773 / 67108864; the
  reductions start from the two infinities.
-/
import Idealize.ShloMosaic.PureOps.Ideal

noncomputable section

namespace Cert.Consts

open Idealize.ShloMosaic

/-- The literal one. -/
theorem ofBits_one : Ideal.ofBits .f32 0x3F800000#32 = 1 := by
  simp [Ideal.ofBits, Ideal.ieee, -EReal.coe_mul]; norm_num

/-- The reference's divisor, the single-precision literal nearest to one fifth. -/
theorem ofBits_fifth : Ideal.ofBits .f32 0x3E4CCCCD#32 = ((13421773 / 67108864 : ℝ) : EReal) := by
  simp [Ideal.ofBits, Ideal.ieee, -EReal.coe_mul]; norm_num

/-- The number added to a row's minimum is positive. -/
theorem ofBits_eps_pos : (0 : EReal) < Ideal.ofBits .f32 0x3727C5AC#32 := by
  have h : Ideal.ofBits .f32 0x3727C5AC#32 = ((10995116 * (2 : ℝ) ^ (-40 : Int) : ℝ) : EReal) := by
    simp [Ideal.ofBits, Ideal.ieee, -EReal.coe_mul]
  rw [h]
  exact_mod_cast (by positivity : (0 : ℝ) < 10995116 * (2 : ℝ) ^ (-40 : Int))

/-- The minimum starts from plus infinity. -/
theorem ofBits_top : Ideal.ofBits .f32 0x7F800000#32 = ⊤ := by
  simp [Ideal.ofBits, Ideal.ieee]

/-- The maxima start from minus infinity. -/
theorem ofBits_bot : Ideal.ofBits .f32 0xFF800000#32 = ⊥ := by
  simp [Ideal.ofBits, Ideal.ieee]

/-- The sums start from zero. -/
theorem ofBits_zero : Ideal.ofBits .f32 0x00000000#32 = 0 := by
  simp [Ideal.ofBits, Ideal.ieee]

end Cert.Consts

end
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.LibDenseCols.lean ====
/-
  A product that contracts the first axis of both operands, read at an index.

  A kernel may multiply a block of weights `[K, P]` — `K` items by `P` outputs — into a block of values `[K, Q]` without
  transposing the weights: the matrix unit contracts the first axis of both operands, giving `[P, Q]`. Into a zero
  accumulator, over the extended reals, entry `(p, q)` of the product is the plain sum `Σ n, X (n, p) * W (n, q)` over
  the items. In particular row `p` of the result depends on column `p` of the weights only.
-/
import Idealize.ShloMosaic.Lib.ValueIdx
import Idealize.ShloMosaic.PureOps.Ideal.Laws

noncomputable section

namespace Idealize.ShloMosaic.DenseCols

open Idealize.ShloMosaic Idealize.ShloMosaic.ValueIdx

/-- The dimension numbers of `[K, P]ᵀ · [K, Q] → [P, Q]`. -/
abbrev colDims (K P Q : Nat)
    (wf : DotDims.WF ⟨2, ![K, P]⟩ ⟨2, ![K, Q]⟩ ⟨2, ![P, Q]⟩ [0] [0] [1] [1] [] []) :
    DotDims ⟨2, ![K, P]⟩ ⟨2, ![K, Q]⟩ ⟨2, ![P, Q]⟩ where
  lhsContracting := [0]
  rhsContracting := [0]
  lhsNonContracting := [1]
  rhsNonContracting := [1]
  lhsBatch := []
  rhsBatch := []
  wf := wf

section
variable {K P Q : Nat} (wf : DotDims.WF ⟨2, ![K, P]⟩ ⟨2, ![K, Q]⟩ ⟨2, ![P, Q]⟩ [0] [0] [1] [1] [] [])

/-- The left operand's column is the result's row. -/
theorem lhs_col (j : (⟨2, ![P, Q]⟩ : Shape).Idx) (c : (colDims K P Q wf).contr.Idx) :
    ((colDims K P Q wf).lhsIdx j c (1 : Fin 2)).val = (j 0).val := by
  unfold DotDims.lhsIdx
  rw [dif_neg (show ¬ (1 : Fin 2) ∈ (colDims K P Q wf).lhsBatch from List.not_mem_nil),
    dif_pos (show (1 : Fin 2) ∈ (colDims K P Q wf).lhsNonContracting from List.mem_singleton.mpr rfl)]
  rfl

/-- The left operand's row is the contraction position. -/
theorem lhs_row (j : (⟨2, ![P, Q]⟩ : Shape).Idx) (c : (colDims K P Q wf).contr.Idx) :
    ((colDims K P Q wf).lhsIdx j c (0 : Fin 2)).val = (c ⟨0, Nat.one_pos⟩).val :=
  (colDims K P Q wf).lhsIdx_val_of_single rfl j c

/-- The right operand's column is the result's column. -/
theorem rhs_col (j : (⟨2, ![P, Q]⟩ : Shape).Idx) (c : (colDims K P Q wf).contr.Idx) :
    ((colDims K P Q wf).rhsIdx j c (1 : Fin 2)).val = (j 1).val := by
  unfold DotDims.rhsIdx
  rw [dif_neg (show ¬ (1 : Fin 2) ∈ (colDims K P Q wf).rhsBatch from List.not_mem_nil),
    dif_pos (show (1 : Fin 2) ∈ (colDims K P Q wf).rhsNonContracting from List.mem_singleton.mpr rfl)]
  rfl

/-- The right operand's row is the contraction position. -/
theorem rhs_row (j : (⟨2, ![P, Q]⟩ : Shape).Idx) (c : (colDims K P Q wf).contr.Idx) :
    ((colDims K P Q wf).rhsIdx j c (0 : Fin 2)).val = (c ⟨0, Nat.one_pos⟩).val :=
  (colDims K P Q wf).rhsIdx_val_of_single rfl j c

/-- Entry `(p, q)` of the product into a zero accumulator is `Σ n, X (n, p) * W (n, q)`. -/
theorem matmul_cols_zero_apply {φ₁ φ₂ : FTy} (X : FVec Ideal ⟨2, ![K, P]⟩ φ₁) (W : FVec Ideal ⟨2, ![K, Q]⟩ φ₂)
    (p : Fin P) (q : Fin Q) :
    FloatOps.matmul (colDims K P Q wf) none X W (constant ⟨2, ![P, Q]⟩ .f32 0x00000000#32) (ix2 p q)
      = ∑ n : Fin K, X (ix2 n p) * W (ix2 n q) := by
  rw [Ideal.matmul_constant_zero_apply, ← Equiv.sum_comp (contrEquiv1 (colDims K P Q wf) K rfl rfl).symm]
  refine Finset.sum_congr rfl fun n _ => ?_
  have hn := contrEquiv1_symm_val (colDims K P Q wf) K rfl rfl n
  have el : (colDims K P Q wf).lhsIdx (ix2 p q) ((contrEquiv1 (colDims K P Q wf) K rfl rfl).symm n) = ix2 n p :=
    funext fun a => Fin.ext (by
      match a with
      | ⟨0, _⟩ => exact (lhs_row wf _ _).trans hn
      | ⟨1, _⟩ => exact lhs_col wf _ _)
  have er : (colDims K P Q wf).rhsIdx (ix2 p q) ((contrEquiv1 (colDims K P Q wf) K rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseCols

end
-- ==== Proof.TileValue.lean ====
/-
  What one grid step of the kernel stores, as a number.

  A step loads a tile `x0` of 256 normalised input columns and all 16384 normalised target columns `x1`, both
  with 40 entries per column. It forms the 256 × 16384 matrix of inner products `sims x0 x1 x t = Σ d, x0 (d, x) · x1 (d, t)`,
  takes each row's minimum, turns the row into weights, divides the row's largest weight by the row's sum of weights
  (`RowLaw.kernelRow`), and stores the largest of the 256 row values in every lane of its output block. So the stored
  number is at most `c` exactly when every row value of the tile is.
-/
import proofs.«177623_j21732534518053_2_alg».proof.Proof.Gen.KernelIdeal.Skeleton
import proofs.«177623_j21732534518053_2_alg».proof.Proof.RowLaw
import proofs.«177623_j21732534518053_2_alg».proof.Proof.Consts
import proofs.«177623_j21732534518053_2_alg».proof.Proof.LibColumn
import proofs.«177623_j21732534518053_2_alg».proof.Proof.LibDenseCols
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.Tile

open Cert.KernelIdeal Cert.KernelIdeal.Gen Idealize.ShloMosaic Idealize.ShloMosaic.ValueIdx
open Idealize.ShloMosaic.Column Idealize.ShloMosaic.DenseCols Cert.RowLaw

/-- The inner product of input column `x` of the tile with target column `t`. -/
def sims (x0 : FVec Ideal S40x256 .f32) (x1 : FVec Ideal S40x16384 .f32) (x : Fin 256) (t : Fin 16384) : EReal :=
  ∑ d : Fin 40, x0 (ix2 d x) * x1 (ix2 d t)

/-- The number both programs add to a row's minimum. -/
abbrev eps : EReal := Ideal.ofBits .f32 0x3727C5AC#32
/-- The kernel's factor, minus the reciprocal of the reference's divisor. -/
abbrev negInvH : EReal := ((-67108864 / 13421773 : ℝ) : EReal)

/-- The named factor is that rational. -/
theorem named_negInvH : Named.named (F := Ideal) κ "neg_inv_h" (φ := .f32) 0xC0A00000#32 = negInvH :=
  IdealRules.named_const.ideal_named_scalar _ _ _ _ rfl

/-! ## The steps of the payload read at an index -/

/-- The matrix product of the tile with the targets, entry `(x, t)`. -/
theorem matmul_tile_apply (x0 : FVec Ideal S40x256 .f32) (x1 : FVec Ideal S40x16384 .f32) (x : Fin 256) (t : Fin 16384) :
    matmul dot_S40x256_S40x16384_S256x16384_0_0_1_1_n_n none (shapeCast S40x256 x0 shapeCasts_S40x256_S40x256)
      (shapeCast S40x16384 x1 shapeCasts_S40x16384_S40x16384) (constant S256x16384 .f32 0x00000000#32) (ix2 x t)
      = sims x0 x1 x t := by
  unfold sims
  rw [shapeCast_self, shapeCast_self]
  exact matmul_cols_zero_apply dot_S40x256_S40x16384_S256x16384_0_0_1_1_n_n_wf x0 x1 x t

/-- Row `x` of the matrix, entry `t`: the reduction's own index. -/
theorem lift_row (x : Fin 256) (t : Fin 16384) :
    reduces_S256x16384_S256.lift (ix1 x) t = ix2 x t := by
  funext a; apply Fin.ext
  match a with
  | ⟨0, _⟩ => rfl
  | ⟨1, _⟩ => rfl

/-- A row's minimum. -/
theorem rowMin_apply (v : FVec Ideal S256x16384 .f32) (hφ : FKind.Formats .f32)
    (hacc : (0x7F800000#32 : BitVec 32) = 0x7F800000#32) (x : Fin 256) :
    multiReduction .minimumf [1] S256 v 0x7F800000#32 reduces_S256x16384_S256 hφ hacc (ix1 x)
      = Finset.univ.fold min ⊤ (fun t : Fin 16384 => v (ix2 x t)) := by
  refine (multiReduction_minimumf_eq_fold v _ reduces_S256x16384_S256 hφ hacc (ix1 x)).trans ?_
  refine (reduces_S256x16384_S256.fold_filter_drop_single _ _ v (ix1 x)).trans ?_
  have e : (v ∘ reduces_S256x16384_S256.lift (ix1 x)) = fun t : Fin 16384 => v (ix2 x t) :=
    funext fun t => congrArg v (lift_row x t)
  rw [e]
  exact congrArg (fun b => Finset.fold min b (fun t : Fin 16384 => v (ix2 x t)) Finset.univ) Consts.ofBits_top

/-- A row's maximum. -/
theorem rowMax_apply (v : FVec Ideal S256x16384 .f32) (hφ : FKind.Formats .f32)
    (hacc : (0xFF800000#32 : BitVec 32) = 0xFF800000#32) (x : Fin 256) :
    multiReduction .maximumf [1] S256 v 0xFF800000#32 reduces_S256x16384_S256 hφ hacc (ix1 x)
      = Finset.univ.fold max ⊥ (fun t : Fin 16384 => v (ix2 x t)) := by
  refine (Ideal.multiReduction_maximumf_single v _ reduces_S256x16384_S256 hφ hacc (ix1 x)).trans ?_
  have e : (v ∘ reduces_S256x16384_S256.lift (ix1 x)) = fun t : Fin 16384 => v (ix2 x t) :=
    funext fun t => congrArg v (lift_row x t)
  rw [e]
  exact congrArg (fun b => Finset.fold max b (fun t : Fin 16384 => v (ix2 x t)) Finset.univ) Consts.ofBits_bot

/-- A row's sum. -/
theorem rowSum_apply (v : FVec Ideal S256x16384 .f32) (hφ : FKind.Formats .f32)
    (hacc : (0x00000000#32 : BitVec 32) = 0x00000000#32) (x : Fin 256) :
    multiReduction .add [1] S256 v 0x00000000#32 reduces_S256x16384_S256 hφ hacc (ix1 x)
      = ∑ t : Fin 16384, v (ix2 x t) := by
  refine (Ideal.multiReduction_add_single v _ reduces_S256x16384_S256 hφ hacc (ix1 x)).trans ?_
  exact Finset.sum_congr rfl fun t _ => congrArg v (lift_row x t)

theorem exp_apply {s : Shape} (a : FVec Ideal s .f32) (i : s.Idx) : exp a i = Ideal.exp (a i) := rfl

/-- The column of row values with a leading unit axis, read at an index. -/
theorem cast3_apply (v : FVec Ideal S256x1 .f32) (a : Fin 1) (b : Fin 256) (d : Fin 1) :
    shapeCast S1x256x1 v shapeCasts_S256x1_S1x256x1 (ix3 a b d) = v (ix2 b (0 : Fin 1)) :=
  shapeCast_apply v shapeCasts_S256x1_S1x256x1 _ _ (by
    rw [Shape.rowMajor_val_two, Shape.rowMajor_val_three]
    have ha := a.isLt; have hd := d.isLt
    show b.val * 1 + 0 = (a.val * 256 + b.val) * 1 + d.val
    omega)

/-- The weight of entry `(x, t)` of any matrix `v4` of inner products is the kernel's weight of entry `t` of its row `x`. -/
theorem weights_apply (v4 : FVec Ideal S256x16384 .f32) (hφ : FKind.Formats .f32)
    (hacc : (0x7F800000#32 : BitVec 32) = 0x7F800000#32) (x : Fin 256) (t : Fin 16384) :
    exp (mulf v4 (broadcastTo S256x16384
        (mulf (divf (broadcast S256x1 (FloatOps.ofBits .f32 0x3F800000#32))
            (addf (shapeCast S256x1 (multiReduction .minimumf [1] S256 v4 0x7F800000#32 reduces_S256x16384_S256 hφ hacc)
                shapeCasts_S256_S256x1)
              (broadcast S256x1 (FloatOps.ofBits .f32 0x3727C5AC#32))))
          (broadcast S256x1 (Named.named κ "neg_inv_h" 0xC0A00000#32)))
        broadcasts_S256x1_S256x16384)) (ix2 x t)
      = kernelWeight eps negInvH (fun u => v4 (ix2 x u)) t := by
  rw [exp_apply, mulf_apply, broadcastTo_a1_ab_apply, mulf_apply, divf_apply, addf_apply, broadcast_apply,
    broadcast_apply, broadcast_apply, shapeCast_a_a1_apply, rowMin_apply, named_negInvH, Ideal.ofBits_def,
    Ideal.ofBits_def, Consts.ofBits_one]
  rfl

/-- The largest entry of the column, extracted as a scalar, is at most `c` exactly when every entry is. -/
theorem tileMax_le_iff (v : FVec Ideal S256x1 .f32) (hφ : FKind.Formats .f32)
    (hacc : (0xFF800000#32 : BitVec 32) = 0xFF800000#32) (c : EReal) :
    extractAt ![0, 0, 0] (shapeCast S1x1x1 (multiReduction .maximumf [1, 2] S1
        (shapeCast S1x256x1 v shapeCasts_S256x1_S1x256x1) 0xFF800000#32 reduces_S1x256x1_S1 hφ hacc)
        shapeCasts_S1_S1x1x1) inpos_S1x1x1_p0_0_0 ≤ c
      ↔ ∀ x : Fin 256, v (ix2 x (0 : Fin 1)) ≤ c := by
  have hone : ∀ j j' : S1.Idx, j = j' := fun j j' => funext fun a => Fin.ext (by
    match a with
    | ⟨0, _⟩ =>
      have h1 : (j 0).val < 1 := (j 0).isLt
      have h2 : (j' 0).val < 1 := (j' 0).isLt
      show (j 0).val = (j' 0).val
      omega)
  unfold extractAt
  rw [shapeCast_apply _ shapeCasts_S1_S1x1x1 _ (ix1 (0 : Fin 1)) (by rfl),
    multiReduction_maximumf_eq_fold _ _ reduces_S1x256x1_S1 hφ hacc (ix1 (0 : Fin 1))]
  refine (foldMax_le_iff _ _ _ c).trans ?_
  constructor
  · intro h x
    have := h.2 (ix3 (0 : Fin 1) x (0 : Fin 1)) (Finset.mem_filter.2 ⟨Finset.mem_univ _, hone _ _⟩)
    rwa [cast3_apply] at this
  · intro h
    refine ⟨?_, fun i _ => ?_⟩
    · show Ideal.ofBits .f32 0xFF800000#32 ≤ c
      rw [Consts.ofBits_bot]; exact bot_le
    · obtain ⟨a, b, d, rfl⟩ : ∃ (a : Fin 1) (b : Fin 256) (d : Fin 1), i = ix3 a b d := ⟨i 0, i 1, i 2, eq_ix3 i⟩
      rw [cast3_apply]; exact h b

/-! ## The payload -/

/-- What a grid step stores is at most `c` exactly when every row value of its tile is. -/
theorem pay_le_iff (x0 : FVec Ideal S40x256 .f32) (x1 : FVec Ideal S40x16384 .f32) (y : S1x1x128.Idx) (c : EReal) :
    k0_pay1 (F := Ideal) x0 x1 y ≤ c ↔ ∀ x : Fin 256, kernelRow eps negInvH (sims x0 x1 x) ≤ c := by
  unfold k0_pay1
  rw [broadcast_apply]
  refine (tileMax_le_iff _ _ _ c).trans (forall_congr' fun x => ?_)
  have hw : ∀ t : Fin 16384, kernelWeight eps negInvH (fun u => matmul dot_S40x256_S40x16384_S256x16384_0_0_1_1_n_n none
        (shapeCast S40x256 x0 shapeCasts_S40x256_S40x256) (shapeCast S40x16384 x1 shapeCasts_S40x16384_S40x16384)
        (constant S256x16384 .f32 0x00000000#32) (ix2 x u)) t = kernelWeight eps negInvH (sims x0 x1 x) t := fun t =>
    congrArg (fun s => kernelWeight eps negInvH s t) (funext fun u => matmul_tile_apply x0 x1 x u)
  refine Eq.to_iff (congrArg (· ≤ c) ?_)
  refine (divf_apply _ _ _).trans ?_
  unfold kernelRow
  refine congrArg₂ Ideal.div ?_ ?_
  · refine (shapeCast_a_a1_apply _ _ x 0).trans ?_
    refine (rowMax_apply _ _ _ x).trans ?_
    exact congrArg (fun f => Finset.fold max ⊥ f Finset.univ) (funext fun t => (weights_apply _ _ _ x t).trans (hw t))
  · refine (shapeCast_a_a1_apply _ _ x 0).trans ?_
    refine (rowSum_apply _ _ _ x).trans ?_
    exact Finset.sum_congr rfl fun t _ => (weights_apply _ _ _ x t).trans (hw t)

end Cert.KernelIdeal.Tile

end
-- ==== Proof.KernelValue.lean ====
/-
  The kernel's result, read off its frame run.

  Grid step `t` of 64 loads columns `256 t … 256 t + 255` of the normalised inputs and all the normalised targets, and
  stores one number — the largest row value of its tile (`Tile.pay_le_iff`) — in all 128 lanes of row `t` of the
  `[64, 1, 128]` output. The rows tile the output, so after the region the output holds, at `(t, 0, l)`, step `t`'s
  number. The lines after the region take the maximum over the whole output, its logarithm, and negate it; the maximum
  is at most `cc` exactly when every step's number is.
-/
import proofs.«177623_j21732534518053_2_alg».proof.Proof.Gen.KernelIdeal.Frame
import proofs.«177623_j21732534518053_2_alg».proof.Proof.TileValue
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo Cert.RowLaw Cert.KernelIdeal.Tile

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: step `t` reads columns `256 t …` of the inputs, all the targets, and writes block `t`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The grid step that writes row `i 0` of the output. -/
def stepOf (i : S64x1x128.Idx) : Fin cfg0.N := ⟨(i 0).val, by
  have h : (i 0).val < 64 := (i 0).isLt
  have hN : cfg0.N = 64 := N_0
  omega⟩

/-- What step `t` stores in every lane. -/
def stepValue (c : Dev nD) (t : Fin cfg0.N) : EReal :=
  k0_pay1 (F := Ideal) (iblk m c 0 t) (iblk m c 1 t) (ix3 (0 : Fin 1) (0 : Fin 1) (0 : Fin 128))

/-- The payload is the same number in every lane. -/
theorem pay_const (x0 : FVec Ideal S40x256 .f32) (x1 : FVec Ideal S40x16384 .f32) (y y' : S1x1x128.Idx) :
    k0_pay1 (F := Ideal) x0 x1 y = k0_pay1 (F := Ideal) x0 x1 y' := by
  unfold k0_pay1
  rw [broadcast_apply, broadcast_apply]

/-- The output array: row `t` holds step `t`'s value. -/
def outArr (c : Dev nD) : Buf (Elt Ideal) ((c : Thread nD τ).loc main_v21) := fun i => stepValue m c (stepOf i)

/-- Reading an array through step `t`'s output block. -/
theorem read_blk (c : Dev nD) (t : Fin cfg0.N) (G : Buf (Elt Ideal) ((c : Thread nD τ).loc main_v21)) :
    ((cfg0.win 2).blk t).view.read (Elt Ideal) G = fun j => G (((cfg0.win 2).blk t).view.emb j) := rfl

theorem flushed_eq (c : Dev nD) (t : Fin cfg0.N) :
    (dats m 0 c).flushed 2 t = ((cfg0.win 2).blk t).view.read (Elt Ideal) (outArr m c) := by
  show (cfg0.win 2).cut (grid0.coords t) ((dats m 0 c).after 2 t) = _
  rw [after0_2]
  unfold out0_2
  rw [View.canon_unit_zero hz3]
  simp only [View.ld_unit_zero (S := S40x256) hz2, View.ld_unit_zero (S := S40x16384) hz2]
  refine Eq.trans ?_ (read_blk c t (outArr m c)).symm
  funext j
  refine (pay_const _ _ _ (ix3 (0 : Fin 1) (0 : Fin 1) (0 : Fin 128))).trans ?_
  show stepValue m c t = outArr m c (((cfg0.win 2).blk t).view.emb j)
  have ht : stepOf (((cfg0.win 2).blk t).view.emb j) = t := Fin.ext (by
    show win0_2.index t (0 : Fin 3) * 1 + 1 * (j 0).val = t.val
    have e := (idx_facts t).2.2.2.2.1
    have hj : (j 0).val < 1 := (j 0).isLt
    omega)
  unfold outArr
  rw [ht]

/-- Membership in step `t`'s output block, axis by axis. -/
theorem mem_blk (t : Fin cfg0.N) (i : S64x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v21).slice (win0_2.rect t)).set ↔ _
  rw [View.set_slice_whole, Rect.mem_set_unit]
  exact Iff.rfl

/-- Every entry of the output is in the block of the step named by its row. -/
theorem cover (i : S64x1x128.Idx) :
    ∃ t : Fin cfg0.N, (cfg0.win 2).flush t = true ∧ i ∈ ((cfg0.win 2).blk t).view.set := by
  refine ⟨stepOf i, flush0_2 _, ?_⟩
  rw [mem_blk]
  obtain ⟨-, -, -, -, e0, e1, e2⟩ := idx_facts (stepOf i)
  have hs : (stepOf i).val = (i 0).val := rfl
  intro a
  match a with
  | ⟨0, _⟩ =>
    show win0_2.index (stepOf i) (0 : Fin 3) * 1 ≤ (i 0).val ∧ (i 0).val < win0_2.index (stepOf i) (0 : Fin 3) * 1 + 1
    omega
  | ⟨1, _⟩ =>
    show win0_2.index (stepOf i) (1 : Fin 3) * 1 ≤ (i 1).val ∧ (i 1).val < win0_2.index (stepOf i) (1 : Fin 3) * 1 + 1
    have h1 : (i 1).val < 1 := (i 1).isLt
    omega
  | ⟨2, _⟩ =>
    show win0_2.index (stepOf i) (2 : Fin 3) * 128 ≤ (i 2).val ∧ (i 2).val < win0_2.index (stepOf i) (2 : Fin 3) * 128 + 128
    have h2 : (i 2).val < 128 := (i 2).isLt
    omega

/-- The output array after the region. -/
theorem final (c : Dev nD) : (dats m 0 c).arrAt 2 cfg0.N = outArr m c :=
  (dats m 0 c).arrAt_eq_of_cover 2 (outArr m c) (fun t _ => flushed_eq m c t) cover

/-- Minus the logarithm of the largest entry of the output. -/
def result (c : Dev nD) : Buf (Elt Ideal) ((c.tc : Thread nD τ).loc main_v24) :=
  Host.negf (Host.log (Host.reduce FloatOps.maximumf (outArr m c) (constant (F := Ideal) S_ .f32 0xFF800000#32)
    reducesTo_S64x1x128_S_d0_1_2 h_S_))

/-- The result after the lines that follow the region. -/
theorem result_eq (c : Dev nD) :
    Pipeline.afterTail₀ cfgs (dats m) 0 (V0 m) [hostOps1] c main_v24 = result m c := by
  unfold result
  unfold Pipeline.afterTail₀
  show StableHlo.after hostOps1 _ (Proc.devRef .tc main_v24) = _
  after_results
  have hW : Pipeline.withArrays (cfgs 0).spec c (V0 m c) (fun w => (dats m 0 c).arrAt w (cfgs 0).N)
      (Proc.devRef .tc main_v21) = outArr m c :=
    (Pipeline.withArrays_arr spec0 launch0.win.arr_inj c _ _ 2).trans (final m c)
  rw [hW]

/-- The maximum of an output-shaped array is at most `cc` exactly when its start and every entry are. -/
theorem arrMax_le_iff (G : FVec Ideal S64x1x128 .f32) (init : FVec Ideal S_ .f32) (j : S_.Idx) (cc : EReal) :
    Host.reduce FloatOps.maximumf G init reducesTo_S64x1x128_S_d0_1_2 h_S_ j ≤ cc
      ↔ init (Shape.Idx.first h_S_) ≤ cc ∧ ∀ i : S64x1x128.Idx, G i ≤ cc := by
  rw [Host.reduce_eq_fold FloatOps.maximumf G init reducesTo_S64x1x128_S_d0_1_2 h_S_ j]
  exact (foldMax_le_iff _ _ _ cc).trans (and_congr Iff.rfl ⟨fun h i => h i
    (Finset.mem_filter.2 ⟨Finset.mem_univ _, funext fun a => a.elim0⟩), fun h i _ => h i⟩)

/-- The maximum over the output array is at most `cc` exactly when every step's value is. -/
theorem outMax_le_iff (c : Dev nD) (j : S_.Idx) (cc : EReal) :
    Host.reduce FloatOps.maximumf (outArr m c) (constant (F := Ideal) S_ .f32 0xFF800000#32)
        reducesTo_S64x1x128_S_d0_1_2 h_S_ j ≤ cc
      ↔ ∀ t : Fin cfg0.N, stepValue m c t ≤ cc := by
  refine (arrMax_le_iff _ _ j cc).trans ?_
  constructor
  · intro h t
    have hN : cfg0.N = 64 := N_0
    have := h.2 (ix3 (⟨t.val, by have := t.isLt; omega⟩ : Fin 64) (0 : Fin 1) (0 : Fin 128))
    exact this
  · intro h
    refine ⟨?_, fun i => h (stepOf i)⟩
    show Ideal.ofBits .f32 0xFF800000#32 ≤ cc
    rw [Consts.ofBits_bot]; exact bot_le

/-- Every weakly fair execution of the kernel's program ends with the result at `result` and the arguments unchanged. -/
theorem run : θ_run defs (onTc (τ := τ) (main (F := Ideal))) ⟨m, fun _ => 0, ρ⟩ (fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v24 (Pipeline.mem_restRefs_of main_v24 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference's result as a maximum of row values.

  The reference forms the whole 16384 × 16384 matrix of inner products of normalised input columns with normalised
  target columns, and for every row `X` the normalised weights of `RowLaw.referenceWeight`; it takes the maximum over
  the rows for each column and then over the columns. A maximum over all entries is at most `c` exactly when every
  entry is, in whichever order the two maxima are taken; so the result before the logarithm is at most `c` exactly
  when every row's largest normalised weight (`RowLaw.referenceRow`) is.
-/
import proofs.«177623_j21732534518053_2_alg».proof.Proof.Gen.ReferenceIdeal.Read
import proofs.«177623_j21732534518053_2_alg».proof.Proof.RowLaw
import proofs.«177623_j21732534518053_2_alg».proof.Proof.Consts
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic
open Idealize.ShloMosaic.ValueIdx Cert.RowLaw

/-- An argument array. -/
abbrev Arg : Type := (⟨S5x10x128x128, .f32⟩ : BufTy).Contents (Elt Ideal)

/-- The number both programs add to a row's minimum. -/
abbrev eps : EReal := Ideal.ofBits .f32 0x3727C5AC#32
/-- The reference's divisor. -/
abbrev fifth : EReal := ((13421773 / 67108864 : ℝ) : EReal)

/-- Row `X` of the matrix of inner products. -/
def simRow (x0 x1 : Arg) (X t : Fin 16384) : EReal := val_main_v21 (F := Ideal) x0 x1 (ix2 X t)

/-! ## The three reductions of a matrix or a vector, over any operand -/

theorem red_rows : S16384x16384.Reduces [1] S16384 := by decide
theorem red_cols : S16384x16384.Reduces [0] S16384 := by decide

theorem lift_rows (X t : Fin 16384) : red_rows.lift (ix1 X) t = ix2 X t := by
  funext a; apply Fin.ext
  match a with
  | ⟨0, _⟩ => rfl
  | ⟨1, _⟩ => rfl

theorem lift_cols (t X : Fin 16384) : red_cols.lift (ix1 t) X = ix2 X t := by
  funext a; apply Fin.ext
  match a with
  | ⟨0, _⟩ => rfl
  | ⟨1, _⟩ => rfl

/-- A row's minimum. -/
theorem rowsMin_apply (y : FVec Ideal S16384x16384 .f32) (init : FVec Ideal S_ .f32) (X : Fin 16384) :
    Host.reduce FloatOps.minimumf y init reducesTo_S16384x16384_S16384_d1 h_S_ (ix1 X)
      = Finset.univ.fold min (init (Shape.Idx.first h_S_)) (fun t : Fin 16384 => y (ix2 X t)) := by
  rw [Host.reduce_eq_fold_single FloatOps.minimumf y init reducesTo_S16384x16384_S16384_d1 red_rows h_S_ (ix1 X)]
  have e : (y ∘ red_rows.lift (ix1 X)) = fun t : Fin 16384 => y (ix2 X t) :=
    funext fun t => congrArg y (lift_rows X t)
  rw [e]
  rfl

/-- A column's maximum over the rows. -/
theorem colsMax_apply (y : FVec Ideal S16384x16384 .f32) (init : FVec Ideal S_ .f32) (t : Fin 16384) :
    Host.reduce FloatOps.maximumf y init reducesTo_S16384x16384_S16384_d0 h_S_ (ix1 t)
      = Finset.univ.fold max (init (Shape.Idx.first h_S_)) (fun X : Fin 16384 => y (ix2 X t)) := by
  rw [Host.reduce_eq_fold_single FloatOps.maximumf y init reducesTo_S16384x16384_S16384_d0 red_cols h_S_ (ix1 t)]
  have e : (y ∘ red_cols.lift (ix1 t)) = fun X : Fin 16384 => y (ix2 X t) :=
    funext fun X => congrArg y (lift_cols t X)
  rw [e]
  rfl

/-- The maximum of a vector is at most `c` exactly when its start and every entry are. -/
theorem vecMax_le_iff (v : FVec Ideal S16384 .f32) (init : FVec Ideal S_ .f32) (j : S_.Idx) (c : EReal) :
    Host.reduce FloatOps.maximumf v init reducesTo_S16384_S_d0 h_S_ j ≤ c
      ↔ init (Shape.Idx.first h_S_) ≤ c ∧ ∀ t : Fin 16384, v (ix1 t) ≤ c := by
  rw [Host.reduce_eq_fold FloatOps.maximumf v init reducesTo_S16384_S_d0 h_S_ j]
  refine (foldMax_le_iff _ _ _ c).trans (and_congr Iff.rfl ⟨fun h t => h (ix1 t)
    (Finset.mem_filter.2 ⟨Finset.mem_univ _, funext fun a => a.elim0⟩), fun h i _ => ?_⟩)
  have := h (i 0)
  rw [eq_ix1 i]
  exact this

/-! ## The reference's stages -/

/-- The weight of entry `(X, t)`. -/
theorem v32_apply (x0 x1 : Arg) (X t : Fin 16384) :
    val_main_v32 (F := Ideal) x0 x1 (ix2 X t) = referenceWeight eps fifth (simRow x0 x1 X) t := by
  have e26 : idx_main_v26 (ix2 X t) = ix2 X (0 : Fin 1) :=
    funext fun a => Fin.ext (by match a with | ⟨0, _⟩ => rfl | ⟨1, _⟩ => rfl)
  have e23 : idx_main_v23 (ix2 X (0 : Fin 1)) = ix1 X :=
    funext fun a => Fin.ext (by match a with | ⟨0, _⟩ => rfl)
  rw [val_main_v32_apply, val_main_v31_apply, val_main_v29_apply, val_main_v28_apply, val_main_cst_5_apply,
    val_main_v30_apply, val_main_cst_6_apply, val_main_v27_apply, val_main_v26_apply, e26, val_main_v25_apply,
    val_main_v23_apply, e23, val_main_v24_apply, val_main_cst_4_apply]
  unfold val_main_v22
  rw [rowsMin_apply, val_main_cst_3_apply]
  simp only [Ideal.hostUnary_exp_def, Ideal.hostDivf_def, Ideal.subf_def, Ideal.addf_def, Ideal.ofBits_def,
    Consts.ofBits_one, Consts.ofBits_fifth, Consts.ofBits_top, referenceWeight, shiftedMin, simRow]
  rfl

/-- The normalised weight of entry `(X, t)`. -/
theorem v36_apply (x0 x1 : Arg) (X t : Fin 16384) :
    val_main_v36 (F := Ideal) x0 x1 (ix2 X t)
      = Ideal.div (referenceWeight eps fifth (simRow x0 x1 X) t) (∑ u, referenceWeight eps fifth (simRow x0 x1 X) u) := by
  have e35 : idx_main_v35 (ix2 X t) = ix2 X (0 : Fin 1) :=
    funext fun a => Fin.ext (by match a with | ⟨0, _⟩ => rfl | ⟨1, _⟩ => rfl)
  have e34 : idx_main_v34 (ix2 X (0 : Fin 1)) = ix1 X :=
    funext fun a => Fin.ext (by match a with | ⟨0, _⟩ => rfl)
  have e33 : ∀ k : Fin 16384, idx_main_v33 (ix1 X) k = ix2 X k := fun k =>
    funext fun a => Fin.ext (by match a with | ⟨0, _⟩ => rfl | ⟨1, _⟩ => rfl)
  rw [val_main_v36_apply, val_main_v35_apply, e35, val_main_v34_apply, e34, val_main_v33_apply, val_main_cst_7_apply]
  simp only [e33, v32_apply, Ideal.hostDivf_def, Ideal.ofBits_def, Consts.ofBits_zero, zero_add]

/-- The maximum of all normalised weights is at most `c` exactly when every row's largest one is. -/
theorem v38_le_iff (x0 x1 : Arg) (j : S_.Idx) (c : EReal) :
    val_main_v38 (F := Ideal) x0 x1 j ≤ c ↔ ∀ X : Fin 16384, referenceRow eps fifth (simRow x0 x1 X) ≤ c := by
  unfold val_main_v38
  rw [vecMax_le_iff, val_main_cst_9_apply]
  unfold val_main_v37
  simp only [colsMax_apply, val_main_cst_8_apply, Ideal.ofBits_def, Consts.ofBits_bot, foldMax_le_iff, v36_apply,
    referenceRow, Finset.mem_univ, true_implies, bot_le, true_and]
  exact ⟨fun h X t => h t X, fun h t X => h X t⟩

end Cert.ReferenceIdeal.RefValue

end
-- ==== Proof.Prelude.lean ====
/-
  The normalised columns the kernel is launched on are the reference's.

  Before the kernel runs, its program subtracts from every column of both feature arrays the target's column mean and
  divides every column by its Euclidean norm, clipped below by a small constant. The reference does the same, operation
  for operation, so the two arrays the kernel reads — the normalised input columns and the normalised target columns —
  are the reference's two stages of the same name, as functions of the argument arrays: nothing is computed here, the
  two programs spell one term.
-/
import proofs.«177623_j21732534518053_2_alg».proof.Proof.Gen.KernelIdeal.Frame
import proofs.«177623_j21732534518053_2_alg».proof.Proof.Gen.ReferenceIdeal.Read
import Idealize.ShloMosaic.Lib.Pipeline.Value
import Idealize.ShloMosaic.Lib.StableHlo.Run

set_option maxRecDepth 16384

noncomputable section

namespace Cert.KernelIdeal.Prelude

open Cert.KernelIdeal Cert.KernelIdeal.Gen Idealize.ShloMosaic Idealize.ShloMosaic.TcCoe
open Idealize.SL.Sem Idealize.ShloMosaic.StableHlo

variable (m : (ℓ : Loc nD τ sig) → Buf (Elt Ideal) ℓ)

/-- The normalised target columns. -/
theorem V_targets (c : Dev nD) :
    (V m c main_v20 : S40x16384.Idx → EReal)
      = Cert.ReferenceIdeal.Read.val_main_v20 (F := Ideal) (m ((c : Thread nD τ).loc main_arg1)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

set_option maxHeartbeats 4000000 in
/-- The normalised input columns. -/
theorem V_inputs (c : Dev nD) :
    (V m c main_v16 : S40x16384.Idx → EReal)
      = Cert.ReferenceIdeal.Read.val_main_v16 (F := Ideal) (m ((c : Thread nD τ).loc main_arg0))
          (m ((c : Thread nD τ).loc main_arg1)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

end Cert.KernelIdeal.Prelude

end
-- ==== Proof.Bridge.lean ====
/-
  The kernel's result is the reference's.

  Row `x` of grid step `t`'s tile of inner products is row `256 t + x` of the reference's matrix: both are the inner
  products of normalised input column `256 t + x` with every normalised target column, and the normalised columns are
  one term in the two programs (`Prelude`). Each row's value is the same in the two spellings (`RowLaw.row_eq`, the
  kernel's factor being minus the reciprocal of the reference's divisor). The kernel's maximum over steps and tile
  rows and the reference's maximum over columns and rows are then at most `cc` under the same condition — every row's
  value is — so the two maxima are equal, and so are minus their logarithms.
-/
import proofs.«177623_j21732534518053_2_alg».proof.Proof.KernelValue
import proofs.«177623_j21732534518053_2_alg».proof.Proof.RefValue
import proofs.«177623_j21732534518053_2_alg».proof.Proof.Prelude

set_option maxRecDepth 16384

noncomputable section

namespace Cert.Bridge

open Cert.KernelIdeal Cert.KernelIdeal.Gen Idealize.ShloMosaic Idealize.ShloMosaic.TcCoe Idealize.ShloMosaic.ValueIdx
open Idealize.SL.Sem Cert.RowLaw Cert.KernelIdeal.Tile Cert.KernelIdeal.KValue
open Cert.ReferenceIdeal.RefValue (simRow fifth)

variable (m : (ℓ : Loc nD τ sig) → Buf (Elt Ideal) ℓ)

/-- The input features as the reference reads them. -/
abbrev inputs (c : Dev nD) : Cert.ReferenceIdeal.RefValue.Arg := m ((c : Thread nD τ).loc main_arg0)
/-- The target features as the reference reads them. -/
abbrev targets (c : Dev nD) : Cert.ReferenceIdeal.RefValue.Arg := m ((c : Thread nD τ).loc main_arg1)

/-- Row `x` of step `t`'s tile is row `X = 256 t + x` of the reference's matrix. -/
theorem sims_eq (c : Dev nD) (t : Fin cfg0.N) (x : Fin 256) (X : Fin 16384) (hX : X.val = t.val * 256 + x.val) :
    sims (iblk m c 0 t) (iblk m c 1 t) x = simRow (inputs m c) (targets m c) X := by
  funext u
  unfold sims simRow
  rw [Cert.ReferenceIdeal.Read.val_main_v21_apply]
  obtain ⟨e00, e01, e10, e11, -, -, -⟩ := idx_facts t
  refine Finset.sum_congr rfl fun d _ => ?_
  have hl : iblk m c 0 t (ix2 d x) = Cert.ReferenceIdeal.Read.val_main_v16 (F := Ideal) (inputs m c) (targets m c)
      (Cert.ReferenceIdeal.Read.lidx_main_v21 (ix2 X u) d) := by
    show V m c main_v16 (((cfg0.win 0).blk t).view.emb (ix2 d x)) = _
    rw [Prelude.V_inputs]
    refine congrArg _ (funext fun a => Fin.ext ?_)
    match a with
    | ⟨0, _⟩ => show win0_0.index t (0 : Fin 2) * 40 + 1 * d.val = d.val; omega
    | ⟨1, _⟩ => show win0_0.index t (1 : Fin 2) * 256 + 1 * x.val = X.val; omega
  have hr : iblk m c 1 t (ix2 d u) = Cert.ReferenceIdeal.Read.val_main_v20 (F := Ideal) (targets m c)
      (Cert.ReferenceIdeal.Read.ridx_main_v21 (ix2 X u) d) := by
    show V m c main_v20 (((cfg0.win 1).blk t).view.emb (ix2 d u)) = _
    rw [Prelude.V_targets]
    refine congrArg _ (funext fun a => Fin.ext ?_)
    match a with
    | ⟨0, _⟩ => show win0_1.index t (0 : Fin 2) * 40 + 1 * d.val = d.val; omega
    | ⟨1, _⟩ => show win0_1.index t (1 : Fin 2) * 16384 + 1 * u.val = u.val; omega
  rw [hl, hr]

/-- The kernel's factor is minus the reciprocal of the reference's divisor. -/
theorem negInvH_eq : negInvH = ((-(1 / (13421773 / 67108864 : ℝ)) : ℝ) : EReal) := by
  unfold negInvH
  congr 1
  norm_num

/-- A row's value is the same in the two spellings. -/
theorem row_bridge (s : Fin 16384 → EReal) : kernelRow eps negInvH s = referenceRow eps fifth s := by
  rw [negInvH_eq]
  exact row_eq Cert.Consts.ofBits_eps_pos (by norm_num) s

/-- The two maxima before the logarithm are equal. -/
theorem max_eq (c : Dev nD) (j : S_.Idx) :
    Host.reduce FloatOps.maximumf (outArr m c) (constant (F := Ideal) S_ .f32 0xFF800000#32)
        reducesTo_S64x1x128_S_d0_1_2 h_S_ j
      = Cert.ReferenceIdeal.Read.val_main_v38 (F := Ideal) (inputs m c) (targets m c) j := by
  refine eq_of_forall_ge_iff fun cc => ?_
  rw [outMax_le_iff, Cert.ReferenceIdeal.RefValue.v38_le_iff]
  have hN : cfg0.N = 64 := N_0
  constructor
  · intro h X
    have hXlt : X.val < 16384 := X.isLt
    have ht := h ⟨X.val / 256, by omega⟩
    unfold stepValue at ht
    rw [pay_le_iff] at ht
    have hx := ht ⟨X.val % 256, Nat.mod_lt _ (by norm_num)⟩
    rw [sims_eq m c _ _ X (by show X.val = X.val / 256 * 256 + X.val % 256; omega), row_bridge] at hx
    exact hx
  · intro h t
    unfold stepValue
    rw [pay_le_iff]
    intro x
    have htlt : t.val < 64 := by have := t.isLt; omega
    rw [sims_eq m c t x ⟨t.val * 256 + x.val, by have := x.isLt; omega⟩ rfl, row_bridge]
    exact h _

/-- The kernel's result is the reference's last stage of the same arguments. -/
theorem result_eq (c : Dev nD) :
    result m c = Cert.ReferenceIdeal.Read.val_main_v40 (F := Ideal) (inputs m c) (targets m c) := by
  unfold result Cert.ReferenceIdeal.Read.val_main_v40 Cert.ReferenceIdeal.Read.val_main_v39
  exact congrArg (fun v => Host.negf (Host.log v)) (funext fun j => max_eq m c j)

end Cert.Bridge

end
-- ==== Proof.lean ====
/-
  The contextual similarity loss: a Pallas kernel against its jnp reference, over the extended reals.

  Both programs centre the columns of two feature arrays by the target's column means and normalise every column by
  its clipped Euclidean norm (40 entries per column, 16384 columns). With `S (x, t)` the inner product of normalised
  input column `x` and normalised target column `t`, `m x` the minimum of row `x` and `d x = m x + ε`, the
  reference weighs entry `(x, t)` by `exp ((1 - S (x, t) / d x) / h)`, normalises each row's weights by their sum, and
  returns minus the logarithm of the largest normalised weight. The kernel walks the rows in 64 tiles of 256; for each
  row it weighs by `exp (S (x, t) · (1 / d x · k))`, divides the row's largest weight by the row's sum, keeps the
  largest row value per tile, and the lines after it take the maximum over the tiles, the logarithm and the sign. The
  factor `k` is the kernel's literal -5, read as minus the reciprocal of the reference's divisor `h`, the
  single-precision literal nearest one fifth; with that reading every row has the same value in the two spellings
  (Proof/RowLaw.lean), whatever the row holds, so no use is made of the inputs being finite.

  Proof/TileValue.lean reads what a grid step stores; Proof/KernelValue.lean the output array and the kernel's result;
  Proof/RefValue.lean the reference's result; Proof/Prelude.lean identifies the normalised columns of the two programs;
  Proof/Bridge.lean joins the two results. The three frames are the generated frame runs; the one rewritten constant is
  the ledger's entry.
-/
import proofs.«177623_j21732534518053_2_alg».proof.Defs
import proofs.«177623_j21732534518053_2_alg».proof.Proof.Gen.Kernel
import proofs.«177623_j21732534518053_2_alg».proof.Proof.Gen.Kernel.Skeleton
import proofs.«177623_j21732534518053_2_alg».proof.Proof.Gen.Kernel.Launch
import proofs.«177623_j21732534518053_2_alg».proof.Proof.Gen.Kernel.Points
import proofs.«177623_j21732534518053_2_alg».proof.Proof.Gen.Kernel.Frame
import proofs.«177623_j21732534518053_2_alg».proof.Proof.Gen.KernelIdeal
import proofs.«177623_j21732534518053_2_alg».proof.Proof.Gen.KernelIdeal.Skeleton
import proofs.«177623_j21732534518053_2_alg».proof.Proof.Gen.KernelIdeal.Launch
import proofs.«177623_j21732534518053_2_alg».proof.Proof.Gen.KernelIdeal.Points
import proofs.«177623_j21732534518053_2_alg».proof.Proof.Gen.KernelIdeal.Frame
import proofs.«177623_j21732534518053_2_alg».proof.Proof.Gen.ReferenceIdeal
import proofs.«177623_j21732534518053_2_alg».proof.Proof.Gen.ReferenceIdeal.Run
import proofs.«177623_j21732534518053_2_alg».proof.Proof.Gen.ReferenceIdeal.Read
import proofs.«177623_j21732534518053_2_alg».proof.Proof.Gen.Pre_finite_inputs
import proofs.«177623_j21732534518053_2_alg».proof.Proof.Bridge
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewritten constant: the kernel's -5 denotes minus the reciprocal of the reference's divisor. -/
theorem preserves : Cert.preserves_Kernel_KernelIdeal :=
  IdealRules.named_const.statement Cert.KernelIdeal.κ "neg_inv_h" .f32 0xC0A00000#32
    ((-67108864 / 13421773 : ℝ) : EReal) rfl

/-- From memories that agree on the two feature arrays both programs end at minus the logarithm of the largest row
    value. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
